-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part2 {F : FTy → Type} [FloatOps F] (main_arg7 : FVec F S128 .f32) (main_v33 : IVec S_ 1) : IVec S_ 1 :=
  let main_v34 : FVec F S128 .f32 := Host.absf main_arg7
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  main_v38

def fn_part1 {F : FTy → Type} [FloatOps F] (main_arg4 : FVec F S128x128 .f32) (main_arg5 : FVec F S128 .f32) (main_arg6 : FVec F S128x128 .f32) (main_arg7 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg4
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg6
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg7 main_v33

def fn {F : FTy → Type} [FloatOps F] (main_arg0 : FVec F S10000x128 .f32) (main_arg1 : FVec F S10000x10000 .f32) (main_arg2 : FVec F S128x128 .f32) (main_arg3 : FVec F S128 .f32) (main_arg4 : FVec F S128x128 .f32) (main_arg5 : FVec F S128 .f32) (main_arg6 : FVec F S128x128 .f32) (main_arg7 : FVec F S128 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_arg6 main_arg7 main_v13 main_v16
-- ==== Kernel.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S1x128 : Shape := ⟨2, ![1, 128]⟩
abbrev S400x10000 : Shape := ⟨2, ![400, 10000]⟩
abbrev S400x128 : Shape := ⟨2, ![400, 128]⟩

abbrev nBuf : Space → Nat
  | .hbm => 14
  | .vmem => 19
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S1x128, .f32⟩
  | .hbm, ⟨9, _⟩ => ⟨S1x128, .f32⟩
  | .hbm, ⟨10, _⟩ => ⟨S1x128, .f32⟩
  | .hbm, ⟨11, _⟩ => ⟨S10000x128, .f32⟩
  | .hbm, ⟨12, _⟩ => ⟨S10000x128, .f32⟩
  | .hbm, ⟨13, _⟩ => ⟨S10000x128, .f32⟩
  | .local _ .vmem, ⟨0, _⟩ => ⟨S10000x128, .f32⟩
  | .local _ .vmem, ⟨1, _⟩ => ⟨S128x128, .f32⟩
  | .local _ .vmem, ⟨2, _⟩ => ⟨S10000x128, .f32⟩
  | .local _ .vmem, ⟨3, _⟩ => ⟨S400x10000, .f32⟩
  | .local _ .vmem, ⟨4, _⟩ => ⟨S400x10000, .f32⟩
  | .local _ .vmem, ⟨5, _⟩ => ⟨S10000x128, .f32⟩
  | .local _ .vmem, ⟨6, _⟩ => ⟨S1x128, .f32⟩
  | .local _ .vmem, ⟨7, _⟩ => ⟨S128x128, .f32⟩
  | .local _ .vmem, ⟨8, _⟩ => ⟨S1x128, .f32⟩
  | .local _ .vmem, ⟨9, _⟩ => ⟨S400x128, .f32⟩
  | .local _ .vmem, ⟨10, _⟩ => ⟨S400x128, .f32⟩
  | .local _ .vmem, ⟨11, _⟩ => ⟨S400x10000, .f32⟩
  | .local _ .vmem, ⟨12, _⟩ => ⟨S400x10000, .f32⟩
  | .local _ .vmem, ⟨13, _⟩ => ⟨S10000x128, .f32⟩
  | .local _ .vmem, ⟨14, _⟩ => ⟨S1x128, .f32⟩
  | .local _ .vmem, ⟨15, _⟩ => ⟨S128x128, .f32⟩
  | .local _ .vmem, ⟨16, _⟩ => ⟨S1x128, .f32⟩
  | .local _ .vmem, ⟨17, _⟩ => ⟨S400x128, .f32⟩
  | .local _ .vmem, ⟨18, _⟩ => ⟨S400x128, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc1_stg0_0 : Ref sig .tc := ⟨.vmem, 3, rfl⟩
abbrev cc1_stg0_1 : Ref sig .tc := ⟨.vmem, 4, rfl⟩
abbrev cc1_stg1_0 : Ref sig .tc := ⟨.vmem, 5, rfl⟩
abbrev cc1_stg2_0 : Ref sig .tc := ⟨.vmem, 6, rfl⟩
abbrev cc1_stg3_0 : Ref sig .tc := ⟨.vmem, 7, rfl⟩
abbrev cc1_stg4_0 : Ref sig .tc := ⟨.vmem, 8, rfl⟩
abbrev cc1_stg5_0 : Ref sig .tc := ⟨.vmem, 9, rfl⟩
abbrev cc1_stg5_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg3_0 : Ref sig .tc := ⟨.vmem, 15, rfl⟩
abbrev cc2_stg4_0 : Ref sig .tc := ⟨.vmem, 16, rfl⟩
abbrev cc2_stg5_0 : Ref sig .tc := ⟨.vmem, 17, rfl⟩
abbrev cc2_stg5_1 : Ref sig .tc := ⟨.vmem, 18, rfl⟩
abbrev cc0_sem0_0 : DmaSem sig := 0
abbrev cc0_sem1_0 : DmaSem sig := 1
abbrev cc0_sem2_0 : DmaSem sig := 2
abbrev cc1_sem0_0 : DmaSem sig := 3
abbrev cc1_sem0_1 : DmaSem sig := 4
abbrev cc1_sem1_0 : DmaSem sig := 5
abbrev cc1_sem2_0 : DmaSem sig := 6
abbrev cc1_sem3_0 : DmaSem sig := 7
abbrev cc1_sem4_0 : DmaSem sig := 8
abbrev cc1_sem5_0 : DmaSem sig := 9
abbrev cc1_sem5_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem3_0 : DmaSem sig := 15
abbrev cc2_sem4_0 : DmaSem sig := 16
abbrev cc2_sem5_0 : DmaSem sig := 17
abbrev cc2_sem5_1 : DmaSem sig := 18

abbrev nD : Nat := 1
abbrev τ : Topo := Topo.v7x

variable {F : FTy → Type} [FloatOps F]

abbrev grid0 : Pipeline.Grid := .none

abbrev stage0_0 : Fin 1 → Memref sig .tc .vmem S10000x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S10000x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S400x10000 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S10000x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S400x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S400x10000 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S10000x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S400x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  shapeCasts_S128_S1x128 : S128.ShapeCasts S1x128
  inb_S10000x128_S10000x128_0_0 : ∀ a, (![0, 0] : Fin 2 → Nat) a + S10000x128.size a ≤ S10000x128.size a
  h_S10000x128 : 0 < S10000x128.numel
  inb_S128x128_S128x128_0_0 : ∀ a, (![0, 0] : Fin 2 → Nat) a + S128x128.size a ≤ S128x128.size a
  h_S128x128 : 0 < S128x128.numel
  inb_S400x10000_S400x10000_0_0 : ∀ a, (![0, 0] : Fin 2 → Nat) a + S400x10000.size a ≤ S400x10000.size a
  h_S400x10000 : 0 < S400x10000.numel
  shapeCasts_S10000x128_S10000x128 : S10000x128.ShapeCasts S10000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S400x128 : S1x128.Broadcasts S400x128
  inb_S400x128_S400x128_0_0 : ∀ a, (![0, 0] : Fin 2 → Nat) a + S400x128.size a ≤ S400x128.size a
  h_S400x128 : 0 < S400x128.numel
  dot_S10000x128_S128x128_S10000x128_1_0_0_1_n_n_wf : DotDims.WF S10000x128 S128x128 S10000x128 [1] [0] [0] [1] [] []
  dot_S400x10000_S10000x128_S400x128_1_0_0_1_n_n_wf : DotDims.WF S400x10000 S10000x128 S400x128 [1] [0] [0] [1] [] []
  dot_S400x128_S128x128_S400x128_1_0_0_1_n_n_wf : DotDims.WF S400x128 S128x128 S400x128 [1] [0] [0] [1] [] []
  hstage0_0 : ∀ j, (stage0_0 j).IsWhole
  hstage0_1 : ∀ j, (stage0_1 j).IsWhole
  hstage0_2 : ∀ j, (stage0_2 j).IsWhole
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S400x10000.size a ≤ S10000x10000.size a
  hwx1_0 : ∀ i : grid1.Coords, EltTy.bits .f32 = 32 ∨ (Rect.block (s := S10000x10000) S400x10000.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S10000x128.size a ≤ S10000x128.size a
  hwx1_1 : ∀ i : grid1.Coords, EltTy.bits .f32 = 32 ∨ (Rect.block (s := S10000x128) S10000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S400x128.size a ≤ S10000x128.size a
  hwx1_5 : ∀ i : grid1.Coords, EltTy.bits .f32 = 32 ∨ (Rect.block (s := S10000x128) S400x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S400x10000.size a ≤ S10000x10000.size a
  hwx2_0 : ∀ i : grid2.Coords, EltTy.bits .f32 = 32 ∨ (Rect.block (s := S10000x10000) S400x10000.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S10000x128.size a ≤ S10000x128.size a
  hwx2_1 : ∀ i : grid2.Coords, EltTy.bits .f32 = 32 ∨ (Rect.block (s := S10000x128) S10000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .f32 = 32 ∨ (Rect.block (s := S128x128) S128x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S400x128.size a ≤ S10000x128.size a
  hwx2_5 : ∀ i : grid2.Coords, EltTy.bits .f32 = 32 ∨ (Rect.block (s := S10000x128) S400x128.size (cc2_transform_5 i) (hinb2_5 i)).WholeWords (EltTy.packing .f32)

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S400x10000_S10000x128_S400x128_1_0_0_1_n_n : DotDims S400x10000 S10000x128 S400x128 where
  lhsContracting := [1]
  rhsContracting := [0]
  lhsNonContracting := [0]
  rhsNonContracting := [1]
  lhsBatch := []
  rhsBatch := []
  wf := dot_S400x10000_S10000x128_S400x128_1_0_0_1_n_n_wf
def dot_S400x128_S128x128_S400x128_1_0_0_1_n_n : DotDims S400x128 S128x128 S400x128 where
  lhsContracting := [1]
  rhsContracting := [0]
  lhsNonContracting := [0]
  rhsNonContracting := [1]
  lhsBatch := []
  rhsBatch := []
  wf := dot_S400x128_S128x128_S400x128_1_0_0_1_n_n_wf

abbrev win0_0 : Pipeline.Window sig grid0 :=
  Pipeline.Window.whole (Memref.whole main_arg0) false false (stage0_0 0) (sem0_0 0) (Memref.isWhole_whole _) (hstage0_0 0)

abbrev win0_1 : Pipeline.Window sig grid0 :=
  Pipeline.Window.whole (Memref.whole main_arg2) false false (stage0_1 0) (sem0_1 0) (Memref.isWhole_whole _) (hstage0_1 0)

abbrev win0_2 : Pipeline.Window sig grid0 :=
  Pipeline.Window.whole (Memref.whole main_v3) true false (stage0_2 0) (sem0_2 0) (Memref.isWhole_whole _) (hstage0_2 0)

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg1) S400x10000.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v3) S10000x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v0) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg4) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v1) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v4) S400x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_arg1) S400x10000.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v4) S10000x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v1) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg6) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v2) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v5) S400x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S1x128 : Shape := ⟨2, ![1, 128]⟩
abbrev S_ : Shape := ⟨0, ![]⟩

abbrev nBuf : Space → Nat
  | .hbm => 29
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S10000x128, .f32⟩
  | .hbm, ⟨9, _⟩ => ⟨S10000x128, .f32⟩
  | .hbm, ⟨10, _⟩ => ⟨S1x128, .f32⟩
  | .hbm, ⟨11, _⟩ => ⟨S10000x128, .f32⟩
  | .hbm, ⟨12, _⟩ => ⟨S10000x128, .f32⟩
  | .hbm, ⟨13, _⟩ => ⟨S_, .f32⟩
  | .hbm, ⟨14, _⟩ => ⟨S10000x128, .f32⟩
  | .hbm, ⟨15, _⟩ => ⟨S10000x128, .f32⟩
  | .hbm, ⟨16, _⟩ => ⟨S10000x128, .f32⟩
  | .hbm, ⟨17, _⟩ => ⟨S10000x128, .f32⟩
  | .hbm, ⟨18, _⟩ => ⟨S1x128, .f32⟩
  | .hbm, ⟨19, _⟩ => ⟨S10000x128, .f32⟩
  | .hbm, ⟨20, _⟩ => ⟨S10000x128, .f32⟩
  | .hbm, ⟨21, _⟩ => ⟨S_, .f32⟩
  | .hbm, ⟨22, _⟩ => ⟨S10000x128, .f32⟩
  | .hbm, ⟨23, _⟩ => ⟨S10000x128, .f32⟩
  | .hbm, ⟨24, _⟩ => ⟨S10000x128, .f32⟩
  | .hbm, ⟨25, _⟩ => ⟨S1x128, .f32⟩
  | .hbm, ⟨26, _⟩ => ⟨S10000x128, .f32⟩
  | .hbm, ⟨27, _⟩ => ⟨S10000x128, .f32⟩
  | .hbm, ⟨28, _⟩ => ⟨S10000x128, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_call0_cst : Ref sig .tc := ⟨.hbm, 13, rfl⟩
abbrev main_call0_v0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_call1_cst : Ref sig .tc := ⟨.hbm, 21, rfl⟩
abbrev main_call1_v0 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  bcast_S_S10000x128 : S_.BroadcastsInDim S10000x128 (![] : Fin 0 → Fin S10000x128.rank)
  dot_S10000x128_S128x128_S10000x128_1_0_0_1_n_n_wf : DotDims.WF S10000x128 S128x128 S10000x128 [1] [0] [0] [1] [] []
  dot_S10000x10000_S10000x128_S10000x128_1_0_0_1_n_n_wf : DotDims.WF S10000x10000 S10000x128 S10000x128 [1] [0] [0] [1] [] []

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf

class Facts : Prop extends Facts₀ where

variable [Facts]
-- ==== Proof.Spec.lean ====
/-
  THE SPECIFICATION: a two-layer graph convolution with a dense adjacency, on the extended reals, entry by entry.

      S  = x · W1                                   (10000 × 128)
      T  = relu (adj · S + b1) · W3                 (10000 × 128)
      y  = tanh (relu (adj · T + b3) · Wf + bf)     (10000 × 128)

  Every product is the textbook one (a finite sum of products), `relu u = max u 0` with the zero written as the f32
  word it is printed as, and `tanh` is the extended reals' (−1 and 1 at the infinities).

  The one structural fact the certificate uses is ROW LOCALITY: row `p` of `relu (adj · S + b) · W` depends on the
  adjacency through its row `p` alone. So a layer is written row by row — `rowHidden` from one adjacency row to one
  hidden row, `rowProj` from one hidden row to one output row — and a block of 400 consecutive adjacency rows gives
  the same 400 rows of the layer whether it is cut out before the computation or after it.
-/
import Idealize.ShloMosaic.Lib.ValueIdx

noncomputable section

open scoped BigOperators

namespace Cert.Gcn

open Idealize.ShloMosaic Idealize.ShloMosaic.ValueIdx

/-- Node features, [10000, 128]. -/
abbrev Feat : Shape := ⟨2, ![10000, 128]⟩
/-- The dense adjacency, [10000, 10000]. -/
abbrev Adj : Shape := ⟨2, ![10000, 10000]⟩
/-- A weight matrix, [128, 128]. -/
abbrev Wt : Shape := ⟨2, ![128, 128]⟩
/-- A bias vector, [128]. -/
abbrev Bias : Shape := ⟨1, ![128]⟩

/-- The rectifier's floor: the f32 zero word (the extended real 0). -/
abbrev floor0 : EReal := Ideal.ofBits .f32 0x00000000#32

/-- One row times a weight matrix: `(r · W) q = ∑ k, r k * W (k, q)`. -/
def rowProj (r : Fin 128 → EReal) (W : Wt.Idx → EReal) (q : Fin 128) : EReal :=
  ∑ k : Fin 128, r k * W (ix2 k q)

/-- One hidden row from one adjacency row: `relu (a · S + b) k = max (∑ l, a l * S (l, k) + b k) 0`. -/
def rowHidden (a : Fin 10000 → EReal) (S : Feat.Idx → EReal) (b : Fin 128 → EReal) (k : Fin 128) : EReal :=
  max ((∑ l : Fin 10000, a l * S (ix2 l k)) + b k) floor0

/-- `X · W`, entry by entry. -/
def proj (X : Feat.Idx → EReal) (W : Wt.Idx → EReal) : Feat.Idx → EReal :=
  fun i => rowProj (fun k => X (ix2 (i 0) k)) W (i 1)

/-- `relu (A · S + b) · W`, entry by entry: row `i 0` of the adjacency through `rowHidden`, then `rowProj`. -/
def layer (A : Adj.Idx → EReal) (S : Feat.Idx → EReal) (b : Fin 128 → EReal) (W : Wt.Idx → EReal) : Feat.Idx → EReal :=
  fun i => rowProj (rowHidden (fun l => A (ix2 (i 0) l)) S b) W (i 1)

/-- `tanh (relu (A · T + b) · W + c)`, entry by entry. -/
def head (A : Adj.Idx → EReal) (T : Feat.Idx → EReal) (b : Fin 128 → EReal) (W : Wt.Idx → EReal) (c : Fin 128 → EReal) :
    Feat.Idx → EReal :=
  fun i => Ideal.tanh (layer A T b W i + c (i 1))

/-- The network of the eight argument arrays. -/
def gcn (x : Feat.Idx → EReal) (adj : Adj.Idx → EReal) (W1 : Wt.Idx → EReal) (b1 : Bias.Idx → EReal)
    (W3 : Wt.Idx → EReal) (b3 : Bias.Idx → EReal) (Wf : Wt.Idx → EReal) (bf : Bias.Idx → EReal) : Feat.Idx → EReal :=
  head adj (layer adj (proj x W1) (fun k => b1 (ix1 k)) W3) (fun k => b3 (ix1 k)) Wf (fun k => bf (ix1 k))

end Cert.Gcn

end
-- ==== Proof.LibPlainDot.lean ====
/-
  A PLAIN MATRIX PRODUCT read at an entry. A dot of an [A, K] array with a [K, B] array into an [A, B] array that
  contracts the left operand's second axis with the right operand's first, and nothing else, sums over a contraction
  index that has one coordinate. Re-indexed by that coordinate, the contraction's sum at the entry (p, q) is
  `∑ k : Fin K, L (p, k) * R (k, q)` — the textbook entry of the product. The four hypotheses say where the dot's
  dimension numbers send an output index and a contraction index; for a record printed from literal dimension
  numbers two hold by `DotDims.lhsIdx_val_of_single` / `rhsIdx_val_of_single` and two by unfolding.
  Stated for any additive commutative monoid with a product, so that it serves the extended reals.
-/
import Idealize.ShloMosaic.Lib.ValueIdx
import Idealize.ShloMosaic.PureOps.Ideal.Laws

noncomputable section

open scoped BigOperators

namespace Idealize.ShloMosaic.PlainDot

open Idealize.ShloMosaic Idealize.ShloMosaic.ValueIdx

/-- The sum over a one-axis contraction index of a plain [A, K] × [K, B] dot, at the output index `j`, is the sum
    over `k : Fin K` of the left operand at `(j 0, k)` times the right operand at `(k, j 1)`. -/
theorem sum_contr {M : Type*} [AddCommMonoid M] [Mul M] {A K B : Nat}
    (d : DotDims ⟨2, ![A, K]⟩ ⟨2, ![K, B]⟩ ⟨2, ![A, B]⟩)
    (hr : d.contr.rank = 1) (hs : d.contr.size ⟨0, by omega⟩ = K)
    (hl0 : ∀ (j : (⟨2, ![A, B]⟩ : Shape).Idx) (q : d.contr.Idx), (d.lhsIdx j q 0).val = (j 0).val)
    (hl1 : ∀ (j : (⟨2, ![A, B]⟩ : Shape).Idx) (q : d.contr.Idx), (d.lhsIdx j q 1).val = (q ⟨0, by omega⟩).val)
    (hr0 : ∀ (j : (⟨2, ![A, B]⟩ : Shape).Idx) (q : d.contr.Idx), (d.rhsIdx j q 0).val = (q ⟨0, by omega⟩).val)
    (hr1 : ∀ (j : (⟨2, ![A, B]⟩ : Shape).Idx) (q : d.contr.Idx), (d.rhsIdx j q 1).val = (j 1).val)
    (L : (⟨2, ![A, K]⟩ : Shape).Idx → M) (R : (⟨2, ![K, B]⟩ : Shape).Idx → M) (j : (⟨2, ![A, B]⟩ : Shape).Idx) :
    ∑ q : d.contr.Idx, L (d.lhsIdx j q) * R (d.rhsIdx j q) = ∑ k : Fin K, L (ix2 (j 0) k) * R (ix2 k (j 1)) := by
  rw [← Equiv.sum_comp (contrEquiv1 d K hr hs).symm]
  refine Finset.sum_congr rfl fun k _ => ?_
  have hk := contrEquiv1_symm_val d K hr hs k
  have el : d.lhsIdx j ((contrEquiv1 d K hr hs).symm k) = ix2 (j 0) k := funext fun a => Fin.ext (by
    match a with
    | ⟨0, _⟩ => exact hl0 _ _
    | ⟨1, _⟩ => exact (hl1 _ _).trans hk)
  have er : d.rhsIdx j ((contrEquiv1 d K hr hs).symm k) = ix2 k (j 1) := funext fun a => Fin.ext (by
    match a with
    | ⟨0, _⟩ => exact (hr0 _ _).trans hk
    | ⟨1, _⟩ => exact hr1 _ _)
  rw [el, er]
  rfl

/-- On the extended reals a `tpu.matmul` of such a dot into the zero accumulator is the product's entry. -/
theorem matmul_zero_apply {A K B : Nat} {φ₁ φ₂ : FTy} (d : DotDims ⟨2, ![A, K]⟩ ⟨2, ![K, B]⟩ ⟨2, ![A, B]⟩)
    (prec : Option ContractPrecision)
    (hr : d.contr.rank = 1) (hs : d.contr.size ⟨0, by omega⟩ = K)
    (hl0 : ∀ (j : (⟨2, ![A, B]⟩ : Shape).Idx) (q : d.contr.Idx), (d.lhsIdx j q 0).val = (j 0).val)
    (hl1 : ∀ (j : (⟨2, ![A, B]⟩ : Shape).Idx) (q : d.contr.Idx), (d.lhsIdx j q 1).val = (q ⟨0, by omega⟩).val)
    (hr0 : ∀ (j : (⟨2, ![A, B]⟩ : Shape).Idx) (q : d.contr.Idx), (d.rhsIdx j q 0).val = (q ⟨0, by omega⟩).val)
    (hr1 : ∀ (j : (⟨2, ![A, B]⟩ : Shape).Idx) (q : d.contr.Idx), (d.rhsIdx j q 1).val = (j 1).val)
    (L : FVec Ideal ⟨2, ![A, K]⟩ φ₁) (R : FVec Ideal ⟨2, ![K, B]⟩ φ₂) (j : (⟨2, ![A, B]⟩ : Shape).Idx) :
    FloatOps.matmul d prec L R (constant ⟨2, ![A, B]⟩ .f32 0x00000000#32) j
      = ∑ k : Fin K, L (ix2 (j 0) k) * R (ix2 k (j 1)) :=
  (Ideal.matmul_constant_zero_apply d prec L R j).trans (sum_contr d hr hs hl0 hl1 hr0 hr1 L R j)

/-- On the extended reals the host's `dot_general` of such a dot is the product's entry, whatever the schedule. -/
theorem dotGeneral_apply {A K B : Nat} {φ₁ φ₂ : FTy} (d : DotDims ⟨2, ![A, K]⟩ ⟨2, ![K, B]⟩ ⟨2, ![A, B]⟩)
    (prec : Option ContractPrecision) (sched : HostSchedule)
    (hr : d.contr.rank = 1) (hs : d.contr.size ⟨0, by omega⟩ = K)
    (hl0 : ∀ (j : (⟨2, ![A, B]⟩ : Shape).Idx) (q : d.contr.Idx), (d.lhsIdx j q 0).val = (j 0).val)
    (hl1 : ∀ (j : (⟨2, ![A, B]⟩ : Shape).Idx) (q : d.contr.Idx), (d.lhsIdx j q 1).val = (q ⟨0, by omega⟩).val)
    (hr0 : ∀ (j : (⟨2, ![A, B]⟩ : Shape).Idx) (q : d.contr.Idx), (d.rhsIdx j q 0).val = (q ⟨0, by omega⟩).val)
    (hr1 : ∀ (j : (⟨2, ![A, B]⟩ : Shape).Idx) (q : d.contr.Idx), (d.rhsIdx j q 1).val = (j 1).val)
    (L : FVec Ideal ⟨2, ![A, K]⟩ φ₁) (R : FVec Ideal ⟨2, ![K, B]⟩ φ₂) (j : (⟨2, ![A, B]⟩ : Shape).Idx) :
    FloatOps.dotGeneral d prec sched L R j = ∑ k : Fin K, L (ix2 (j 0) k) * R (ix2 k (j 1)) :=
  (Ideal.dotGeneral_apply d prec sched L R j).trans (sum_contr d hr hs hl0 hl1 hr0 hr1 L R j)

end Idealize.ShloMosaic.PlainDot

end
-- ==== Proof.RefGcn.lean ====
/-
  THE REFERENCE IS THE SPECIFICATION. The reference program is twenty-one host operations: three plain matrix
  products with a weight matrix, two with the adjacency, three bias rows broadcast down the 10000 rows, two
  rectifiers against a broadcast zero, and a tanh. Read at an entry on the extended reals, each `dot_general` is the
  textbook sum, each broadcast bias is the bias at the entry's column, the broadcast zero is the zero word, and the
  composed term is `Cert.Gcn.gcn` of the eight arguments.
-/
import proofs.«152872_g71992241816152_cont_sun_m_564_22_alg».proof.Proof.Gen.ReferenceIdeal.Read
import proofs.«152872_g71992241816152_cont_sun_m_564_22_alg».proof.Proof.Spec
import proofs.«152872_g71992241816152_cont_sun_m_564_22_alg».proof.Proof.LibPlainDot

noncomputable section

open scoped BigOperators

namespace Cert.ReferenceIdeal.IsGcn

open Cert.ReferenceIdeal Cert.ReferenceIdeal.Gen Cert.ReferenceIdeal.Read
open Idealize.ShloMosaic Idealize.ShloMosaic.TcCoe Idealize.ShloMosaic.ValueIdx Cert.Gcn

/-- The host's product of a [10000, 128] array with a weight matrix, at an entry. -/
theorem dot_weight_apply (X : FVec Ideal S10000x128 .f32) (W : FVec Ideal S128x128 .f32) (i : S10000x128.Idx) :
    Host.dotGeneral dot_S10000x128_S128x128_S10000x128_1_0_0_1_n_n none X W i
      = ∑ k : Fin 128, X (ix2 (i 0) k) * W (ix2 k (i 1)) :=
  PlainDot.dotGeneral_apply dot_S10000x128_S128x128_S10000x128_1_0_0_1_n_n none .single rfl rfl
    lhs_main_v0_0 lhs_main_v0_1 rhs_main_v0_0 rhs_main_v0_1 X W i

/-- The host's product of the adjacency with a [10000, 128] array, at an entry. -/
theorem dot_adj_apply (A : FVec Ideal S10000x10000 .f32) (S : FVec Ideal S10000x128 .f32) (i : S10000x128.Idx) :
    Host.dotGeneral dot_S10000x10000_S10000x128_S10000x128_1_0_0_1_n_n none A S i
      = ∑ l : Fin 10000, A (ix2 (i 0) l) * S (ix2 l (i 1)) :=
  PlainDot.dotGeneral_apply dot_S10000x10000_S10000x128_S10000x128_1_0_0_1_n_n none .single rfl rfl
    lhs_main_v1_0 lhs_main_v1_1 rhs_main_v1_0 rhs_main_v1_1 A S i

/-- A bias vector broadcast to a row and then down the rows, at an entry, is the bias at the entry's column. -/
theorem bias_rows_apply (b : FVec Ideal S128 .f32) (i : S10000x128.Idx) :
    broadcastInDim S10000x128 ![0, 1] bcast_S1x128_S10000x128_0_1 (broadcastInDim S1x128 ![1] bcast_S128_S1x128_1 b) i
      = b (ix1 (i 1)) :=
  (val_main_v3_apply (F := Ideal) b i).trans ((val_main_v2_apply (F := Ideal) b (idx_main_v3 i)).trans
    (congrArg b (funext fun a => Fin.ext (by match a with | ⟨0, _⟩ => rfl))))

/-- The zero scalar broadcast to the whole array, at an entry, is the zero word. -/
theorem zero_rows_apply (i : S10000x128.Idx) :
    broadcastInDim S10000x128 ![] bcast_S_S10000x128 (constant (F := Ideal) S_ .f32 0x00000000#32) i = floor0 :=
  (val_main_call0_v0_apply (F := Ideal) i).trans (val_main_call0_cst_apply (F := Ideal) _)

/-- `X · W` on the host is the specification's `proj`. -/
theorem dot_weight_eq (X : FVec Ideal S10000x128 .f32) (W : FVec Ideal S128x128 .f32) :
    Host.dotGeneral dot_S10000x128_S128x128_S10000x128_1_0_0_1_n_n none X W = proj X W :=
  funext fun i => dot_weight_apply X W i

/-- `relu (A · S + b) · W` on the host is the specification's `layer`. -/
theorem layer_eq (A : FVec Ideal S10000x10000 .f32) (S : FVec Ideal S10000x128 .f32) (b : FVec Ideal S128 .f32)
    (W : FVec Ideal S128x128 .f32) :
    Host.dotGeneral dot_S10000x128_S128x128_S10000x128_1_0_0_1_n_n none
      (maximumf (addf (Host.dotGeneral dot_S10000x10000_S10000x128_S10000x128_1_0_0_1_n_n none A S)
          (broadcastInDim S10000x128 ![0, 1] bcast_S1x128_S10000x128_0_1 (broadcastInDim S1x128 ![1] bcast_S128_S1x128_1 b)))
        (broadcastInDim S10000x128 ![] bcast_S_S10000x128 (constant S_ .f32 0x00000000#32))) W
      = layer A S (fun k => b (ix1 k)) W := by
  funext i
  refine (dot_weight_apply _ W i).trans ?_
  refine Finset.sum_congr rfl fun k _ => congrArg (· * W (ix2 k (i 1))) ?_
  show max (Host.dotGeneral dot_S10000x10000_S10000x128_S10000x128_1_0_0_1_n_n none A S (ix2 (i 0) k)
      + broadcastInDim S10000x128 ![0, 1] bcast_S1x128_S10000x128_0_1 (broadcastInDim S1x128 ![1] bcast_S128_S1x128_1 b) (ix2 (i 0) k))
      (broadcastInDim S10000x128 ![] bcast_S_S10000x128 (constant (F := Ideal) S_ .f32 0x00000000#32) (ix2 (i 0) k))
    = max ((∑ l : Fin 10000, A (ix2 (i 0) l) * S (ix2 l k)) + b (ix1 k)) floor0
  rw [dot_adj_apply, bias_rows_apply, zero_rows_apply]

/-- The reference's whole term is the specification of its eight arguments. -/
theorem result_eq (x : FVec Ideal S10000x128 .f32) (adj : FVec Ideal S10000x10000 .f32) (W1 : FVec Ideal S128x128 .f32)
    (b1 : FVec Ideal S128 .f32) (W3 : FVec Ideal S128x128 .f32) (b3 : FVec Ideal S128 .f32) (Wf : FVec Ideal S128x128 .f32)
    (bf : FVec Ideal S128 .f32) :
    val_main_v16 (F := Ideal) x adj W1 b1 W3 b3 Wf bf = gcn x adj W1 b1 W3 b3 Wf bf := by
  unfold val_main_v16 val_main_v15 val_main_v14 val_main_v13 val_main_v12 val_main_v11 val_main_call1_v0 val_main_call1_cst
    val_main_v10 val_main_v9 val_main_v8 val_main_v7 val_main_v6 val_main_v5 val_main_call0_v0 val_main_call0_cst
    val_main_v4 val_main_v3 val_main_v2 val_main_v1 val_main_v0
  rw [dot_weight_eq x W1, layer_eq adj (proj x W1) b1 W3, layer_eq adj _ b3 Wf]
  funext i
  show Ideal.tanh (layer adj (layer adj (proj x W1) (fun k => b1 (ix1 k)) W3) (fun k => b3 (ix1 k)) Wf i
      + broadcastInDim S10000x128 ![0, 1] bcast_S1x128_S10000x128_0_1 (broadcastInDim S1x128 ![1] bcast_S128_S1x128_1 bf) i)
    = Ideal.tanh (layer adj (layer adj (proj x W1) (fun k => b1 (ix1 k)) W3) (fun k => b3 (ix1 k)) Wf i + bf (ix1 (i 1)))
  rw [bias_rows_apply]

end Cert.ReferenceIdeal.IsGcn

end
-- ==== Proof.KernelRun.lean ====
/-
  The idealized kernel's run with its RESULT read. The program is three pallas_calls after three reshapes
  of the bias vectors; the contents of every buffer after each of these four stretches are a fold from the
  launch memory (the reshapes applied, then each call's arrays replaced by what its write-backs leave).
  Every weakly fair execution terminates, nothing faulting, with the result buffer holding what that fold
  holds for it after the last call, and the eight argument arrays as launched.
-/
import proofs.«152872_g71992241816152_cont_sun_m_564_22_alg».proof.Proof.Gen.KernelIdeal.Frame

set_option maxRecDepth 16384

noncomputable section

namespace Cert.KernelIdeal.Result

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run of the four stretches, read at the end: the result buffer holds the last boundary's contents for it,
    and each argument array is the launch memory's. -/
theorem run : θ_run defs (onTc (τ := τ) (main (F := F))) ⟨m, fun _ => 0, ρ⟩ (fun r => ∀ c : Dev nD,
      r.2.mem ((c.tc : Thread nD τ).loc main_v5) = W4 m ρ c (Proc.devRef .tc main_v5)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v5 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c)⟩)

end Cert.KernelIdeal.Result

end
-- ==== Proof.KernelRows.lean ====
/-
  THE KERNEL BODIES, READ AT AN ENTRY. Each of the three calls stores one value, a pure term of what it loaded:

    call 0:  x · W1                                               — the whole [10000, 128] array at once;
    call 1:  relu (a · S + b) · W        of a block `a` of 400 adjacency rows, the whole support matrix `S`,
                                          the bias as a [1, 128] row and a weight matrix;
    call 2:  tanh (relu (a · T + b) · W + c)   of the same, with a second bias row `c`.

  On the extended reals a `tpu.matmul` into the zero accumulator is the textbook product, the [1, 128] row broadcast
  down 400 rows reads its column, and the identity shape casts vanish. So row `p` of call 1's block is
  `rowProj (rowHidden (row p of a) S b) W`, and call 2's adds the bias and takes tanh: the specification's rows.
-/
import proofs.«152872_g71992241816152_cont_sun_m_564_22_alg».proof.Proof.Gen.KernelIdeal.Skeleton
import proofs.«152872_g71992241816152_cont_sun_m_564_22_alg».proof.Proof.Spec
import proofs.«152872_g71992241816152_cont_sun_m_564_22_alg».proof.Proof.LibPlainDot
import Idealize.ShloMosaic.Lib.Pipeline.Value

noncomputable section

open scoped BigOperators

namespace Cert.KernelIdeal.Rows

open Cert.KernelIdeal Cert.KernelIdeal.Gen
open Idealize.ShloMosaic Idealize.ShloMosaic.TcCoe Idealize.ShloMosaic.ValueIdx Cert.Gcn

/-! Where the dimension numbers of the [10000, 128] × [128, 128] product of the first call send an output index and a contraction index. -/
theorem proj_lhs0 (i : S10000x128.Idx) (q : dot_S10000x128_S128x128_S10000x128_1_0_0_1_n_n.contr.Idx) : (dot_S10000x128_S128x128_S10000x128_1_0_0_1_n_n.lhsIdx i q 0).val = (i 0).val := by
  unfold DotDims.lhsIdx
  rw [dif_neg (show ¬(0 : Fin S10000x128.rank) ∈ dot_S10000x128_S128x128_S10000x128_1_0_0_1_n_n.lhsBatch by decide), dif_pos (show (0 : Fin S10000x128.rank) ∈ dot_S10000x128_S128x128_S10000x128_1_0_0_1_n_n.lhsNonContracting by decide)]
  rfl
theorem proj_lhs1 (i : S10000x128.Idx) (q : dot_S10000x128_S128x128_S10000x128_1_0_0_1_n_n.contr.Idx) : (dot_S10000x128_S128x128_S10000x128_1_0_0_1_n_n.lhsIdx i q 1).val = (q ⟨0, by decide⟩).val :=
  dot_S10000x128_S128x128_S10000x128_1_0_0_1_n_n.lhsIdx_val_of_single rfl i q
theorem proj_rhs0 (i : S10000x128.Idx) (q : dot_S10000x128_S128x128_S10000x128_1_0_0_1_n_n.contr.Idx) : (dot_S10000x128_S128x128_S10000x128_1_0_0_1_n_n.rhsIdx i q 0).val = (q ⟨0, by decide⟩).val :=
  dot_S10000x128_S128x128_S10000x128_1_0_0_1_n_n.rhsIdx_val_of_single rfl i q
theorem proj_rhs1 (i : S10000x128.Idx) (q : dot_S10000x128_S128x128_S10000x128_1_0_0_1_n_n.contr.Idx) : (dot_S10000x128_S128x128_S10000x128_1_0_0_1_n_n.rhsIdx i q 1).val = (i 1).val := by
  unfold DotDims.rhsIdx
  rw [dif_neg (show ¬(1 : Fin S128x128.rank) ∈ dot_S10000x128_S128x128_S10000x128_1_0_0_1_n_n.rhsBatch by decide), dif_pos (show (1 : Fin S128x128.rank) ∈ dot_S10000x128_S128x128_S10000x128_1_0_0_1_n_n.rhsNonContracting by decide)]
  rfl

/-! Where the dimension numbers of the [400, 10000] × [10000, 128] product of a block of adjacency rows with the support matrix send an output index and a contraction index. -/
theorem adj_lhs0 (i : S400x128.Idx) (q : dot_S400x10000_S10000x128_S400x128_1_0_0_1_n_n.contr.Idx) : (dot_S400x10000_S10000x128_S400x128_1_0_0_1_n_n.lhsIdx i q 0).val = (i 0).val := by
  unfold DotDims.lhsIdx
  rw [dif_neg (show ¬(0 : Fin S400x10000.rank) ∈ dot_S400x10000_S10000x128_S400x128_1_0_0_1_n_n.lhsBatch by decide), dif_pos (show (0 : Fin S400x10000.rank) ∈ dot_S400x10000_S10000x128_S400x128_1_0_0_1_n_n.lhsNonContracting by decide)]
  rfl
theorem adj_lhs1 (i : S400x128.Idx) (q : dot_S400x10000_S10000x128_S400x128_1_0_0_1_n_n.contr.Idx) : (dot_S400x10000_S10000x128_S400x128_1_0_0_1_n_n.lhsIdx i q 1).val = (q ⟨0, by decide⟩).val :=
  dot_S400x10000_S10000x128_S400x128_1_0_0_1_n_n.lhsIdx_val_of_single rfl i q
theorem adj_rhs0 (i : S400x128.Idx) (q : dot_S400x10000_S10000x128_S400x128_1_0_0_1_n_n.contr.Idx) : (dot_S400x10000_S10000x128_S400x128_1_0_0_1_n_n.rhsIdx i q 0).val = (q ⟨0, by decide⟩).val :=
  dot_S400x10000_S10000x128_S400x128_1_0_0_1_n_n.rhsIdx_val_of_single rfl i q
theorem adj_rhs1 (i : S400x128.Idx) (q : dot_S400x10000_S10000x128_S400x128_1_0_0_1_n_n.contr.Idx) : (dot_S400x10000_S10000x128_S400x128_1_0_0_1_n_n.rhsIdx i q 1).val = (i 1).val := by
  unfold DotDims.rhsIdx
  rw [dif_neg (show ¬(1 : Fin S10000x128.rank) ∈ dot_S400x10000_S10000x128_S400x128_1_0_0_1_n_n.rhsBatch by decide), dif_pos (show (1 : Fin S10000x128.rank) ∈ dot_S400x10000_S10000x128_S400x128_1_0_0_1_n_n.rhsNonContracting by decide)]
  rfl

/-! Where the dimension numbers of the [400, 128] × [128, 128] product of a block of hidden rows with a weight matrix send an output index and a contraction index. -/
theorem wt_lhs0 (i : S400x128.Idx) (q : dot_S400x128_S128x128_S400x128_1_0_0_1_n_n.contr.Idx) : (dot_S400x128_S128x128_S400x128_1_0_0_1_n_n.lhsIdx i q 0).val = (i 0).val := by
  unfold DotDims.lhsIdx
  rw [dif_neg (show ¬(0 : Fin S400x128.rank) ∈ dot_S400x128_S128x128_S400x128_1_0_0_1_n_n.lhsBatch by decide), dif_pos (show (0 : Fin S400x128.rank) ∈ dot_S400x128_S128x128_S400x128_1_0_0_1_n_n.lhsNonContracting by decide)]
  rfl
theorem wt_lhs1 (i : S400x128.Idx) (q : dot_S400x128_S128x128_S400x128_1_0_0_1_n_n.contr.Idx) : (dot_S400x128_S128x128_S400x128_1_0_0_1_n_n.lhsIdx i q 1).val = (q ⟨0, by decide⟩).val :=
  dot_S400x128_S128x128_S400x128_1_0_0_1_n_n.lhsIdx_val_of_single rfl i q
theorem wt_rhs0 (i : S400x128.Idx) (q : dot_S400x128_S128x128_S400x128_1_0_0_1_n_n.contr.Idx) : (dot_S400x128_S128x128_S400x128_1_0_0_1_n_n.rhsIdx i q 0).val = (q ⟨0, by decide⟩).val :=
  dot_S400x128_S128x128_S400x128_1_0_0_1_n_n.rhsIdx_val_of_single rfl i q
theorem wt_rhs1 (i : S400x128.Idx) (q : dot_S400x128_S128x128_S400x128_1_0_0_1_n_n.contr.Idx) : (dot_S400x128_S128x128_S400x128_1_0_0_1_n_n.rhsIdx i q 1).val = (i 1).val := by
  unfold DotDims.rhsIdx
  rw [dif_neg (show ¬(1 : Fin S128x128.rank) ∈ dot_S400x128_S128x128_S400x128_1_0_0_1_n_n.rhsBatch by decide), dif_pos (show (1 : Fin S128x128.rank) ∈ dot_S400x128_S128x128_S400x128_1_0_0_1_n_n.rhsNonContracting by decide)]
  rfl

/-- The adjacency-block product at an entry: row `p` of the block against column `k` of the support matrix. -/
theorem adj_block_apply (a : FVec Ideal S400x10000 .f32) (S : FVec Ideal S10000x128 .f32) (p : Fin 400) (k : Fin 128) :
    FloatOps.matmul (F := Ideal) (φ₁ := .f32) (φ₂ := .f32) dot_S400x10000_S10000x128_S400x128_1_0_0_1_n_n none a S (constant S400x128 .f32 0x00000000#32) (ix2 p k)
      = ∑ l : Fin 10000, a (ix2 p l) * S (ix2 l k) :=
  PlainDot.matmul_zero_apply (φ₁ := .f32) (φ₂ := .f32) dot_S400x10000_S10000x128_S400x128_1_0_0_1_n_n none rfl rfl adj_lhs0 adj_lhs1 adj_rhs0 adj_rhs1 a S (ix2 p k)

/-- A [1, 128] row broadcast down 400 rows, at an entry, is the row at the entry's column. -/
theorem row_bcast_apply (b : FVec Ideal S1x128 .f32) (h : S1x128.Broadcasts S400x128) (p : Fin 400) (k : Fin 128) :
    broadcastTo S400x128 b h (ix2 p k) = b (ix2 0 k) :=
  broadcastTo_apply b h (ix2 p k) (ix2 0 k) (fun a => by
    match a with
    | ⟨0, _⟩ => show 0 = if (1 : Nat) = 1 then 0 else _; rw [if_pos rfl]
    | ⟨1, _⟩ => show k.val = if (128 : Nat) = 1 then 0 else k.val; rw [if_neg (by decide)])

/-- The rectified sum of one block row: `relu (a · S + b)` at `(p, k)` is the specification's hidden row of row `p`. -/
theorem hidden_apply (a : FVec Ideal S400x10000 .f32) (S : FVec Ideal S10000x128 .f32) (b : FVec Ideal S1x128 .f32)
    (h1 : S10000x128.ShapeCasts S10000x128) (h2 : S1x128.ShapeCasts S1x128) (h3 : S1x128.Broadcasts S400x128)
    (p : Fin 400) (k : Fin 128) :
    maximumf (F := Ideal) (φ := .f32) (addf (matmul (F := Ideal) (φ₁ := .f32) (φ₂ := .f32) dot_S400x10000_S10000x128_S400x128_1_0_0_1_n_n none a (shapeCast S10000x128 S h1) (constant S400x128 .f32 0x00000000#32))
        (broadcastTo S400x128 (shapeCast S1x128 b h2) h3))
      (broadcast S400x128 (Scalar.ofBits (F := Ideal) .f32 0x00000000#32)) (ix2 p k)
      = rowHidden (fun l => a (ix2 p l)) S (fun k => b (ix2 0 k)) k := by
  rw [shapeCast_self, shapeCast_self]
  show max (FloatOps.matmul (F := Ideal) (φ₁ := .f32) (φ₂ := .f32) dot_S400x10000_S10000x128_S400x128_1_0_0_1_n_n none a S (constant S400x128 .f32 0x00000000#32) (ix2 p k)
      + broadcastTo S400x128 b h3 (ix2 p k)) floor0
    = max ((∑ l : Fin 10000, a (ix2 p l) * S (ix2 l k)) + b (ix2 0 k)) floor0
  rw [adj_block_apply, row_bcast_apply]

/-- CALL 0's payload is `x · W1`. -/
theorem proj_payload (x : FVec Ideal S10000x128 .f32) (W : FVec Ideal S128x128 .f32) : k0_pay1 (F := Ideal) x W = proj x W :=
  funext fun j => PlainDot.matmul_zero_apply (φ₁ := .f32) (φ₂ := .f32) dot_S10000x128_S128x128_S10000x128_1_0_0_1_n_n none rfl rfl proj_lhs0 proj_lhs1 proj_rhs0 proj_rhs1 x W j

/-- CALL 1's payload at `(p, q)`: the layer's row of block row `p`. -/
theorem layer_payload (a : FVec Ideal S400x10000 .f32) (S : FVec Ideal S10000x128 .f32) (b : FVec Ideal S1x128 .f32)
    (W : FVec Ideal S128x128 .f32) (p : Fin 400) (q : Fin 128) :
    k1_pay1 (F := Ideal) a S b W (ix2 p q) = rowProj (rowHidden (fun l => a (ix2 p l)) S (fun k => b (ix2 0 k))) W q := by
  refine (PlainDot.matmul_zero_apply (φ₁ := .f32) (φ₂ := .f32) dot_S400x128_S128x128_S400x128_1_0_0_1_n_n none rfl rfl wt_lhs0 wt_lhs1 wt_rhs0 wt_rhs1 _ W (ix2 p q)).trans ?_
  exact Finset.sum_congr rfl fun k _ => congrArg (· * W (ix2 k q)) (hidden_apply a S b _ _ _ p k)

/-- CALL 2's payload at `(p, q)`: the same row, plus the second bias at column `q`, through tanh. -/
theorem head_payload (a : FVec Ideal S400x10000 .f32) (T : FVec Ideal S10000x128 .f32) (b : FVec Ideal S1x128 .f32)
    (W : FVec Ideal S128x128 .f32) (c : FVec Ideal S1x128 .f32) (p : Fin 400) (q : Fin 128) :
    k2_pay1 (F := Ideal) a T b W c (ix2 p q)
      = Ideal.tanh (rowProj (rowHidden (fun l => a (ix2 p l)) T (fun k => b (ix2 0 k))) W q + c (ix2 0 q)) := by
  show Ideal.tanh (k1_pay1 (F := Ideal) a T b W (ix2 p q) + broadcastTo S400x128 (shapeCast S1x128 c _) _ (ix2 p q)) = _
  rw [layer_payload, shapeCast_self, row_bcast_apply]

end Cert.KernelIdeal.Rows

end
-- ==== Proof.KernelBlocks.lean ====
/-
  FROM BLOCKS TO ARRAYS, call by call. Each call's output array is written back block by block; when what every point
  writes back is its block of ONE function of the arrays the call found, and the blocks cover the array, the array ends
  holding that function. Call 0 has one point and whole-array windows: it leaves `x · W1`. Calls 1 and 2 run over 25
  points; point `t` sees rows `400 t … 400 t + 399` of the adjacency and every other operand whole, and writes rows
  `400 t … 400 t + 399` of the output — by row locality exactly those rows of the layer (of the head) of the whole arrays.
  All of it is stated at a parameter `V`, the buffer contents when the call is entered.
-/
import proofs.«152872_g71992241816152_cont_sun_m_564_22_alg».proof.Proof.Gen.KernelIdeal.Frame
import proofs.«152872_g71992241816152_cont_sun_m_564_22_alg».proof.Proof.KernelRows
import Idealize.ShloMosaic.Lib.Pipeline.Value

set_option maxRecDepth 16384

noncomputable section

open scoped BigOperators

namespace Cert.KernelIdeal.Blocks

open Cert.KernelIdeal Cert.KernelIdeal.Gen
open Idealize.ShloMosaic Idealize.ShloMosaic.TcCoe Idealize.ShloMosaic.ValueIdx Idealize.SL.Sem Cert.Gcn
open Idealize.ShloMosaic.Pipeline (Dat Cfg Window)

variable (V : (c : Dev nD) → (b : Ref sig .tc) → Buf (Elt Ideal) ((c : Thread nD τ).loc b))

/-- The zero offsets of a whole-buffer access, however they are spelt. -/
theorem hz : (![0, 0] : Fin 2 → Nat) = fun _ => 0 := funext fun a => by fin_cases a <;> rfl

/-! ## Call 0: the input projection -/

/-- Call 0 has no grid: its one point sees every window at block index 0, the whole array. -/
theorem idx0 : ∀ t : Fin cfg0.N, win0_0.index t (0 : Fin 2) = 0 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0 :=
  (by decide +kernel : ∀ t : Fin grid0.N, _)

/-- Call 0's window 0 is its whole array at every point. -/
theorem read0_0 (c : Dev nD) (t : Fin cfg0.N) : iblk0 V c 0 t = V c main_arg0 := by
  funext y
  show V c main_arg0 (((cfg0.win 0).blk t).view.emb y) = V c main_arg0 y
  refine congrArg _ (funext fun a => Fin.ext ?_)
  match a with
  | ⟨0, _⟩ => show win0_0.index t (0 : Fin 2) * 10000 + 1 * (y 0).val = (y 0).val; rw [(idx0 t).1]; omega
  | ⟨1, _⟩ => show win0_0.index t (1 : Fin 2) * 128 + 1 * (y 1).val = (y 1).val; rw [(idx0 t).2.1]; omega

/-- Call 0's window 1 is its whole array at every point. -/
theorem read0_1 (c : Dev nD) (t : Fin cfg0.N) : iblk0 V c 1 t = V c main_arg2 := by
  funext y
  show V c main_arg2 (((cfg0.win 1).blk t).view.emb y) = V c main_arg2 y
  refine congrArg _ (funext fun a => Fin.ext ?_)
  match a with
  | ⟨0, _⟩ => show win0_1.index t (0 : Fin 2) * 128 + 1 * (y 0).val = (y 0).val; rw [(idx0 t).2.2.1]; omega
  | ⟨1, _⟩ => show win0_1.index t (1 : Fin 2) * 128 + 1 * (y 1).val = (y 1).val; rw [(idx0 t).2.2.2.1]; omega

/-- An entry of call 0's output block is the same entry of the output array. -/
theorem emb0_2 (t : Fin cfg0.N) (y : S10000x128.Idx) : ((cfg0.win 2).blk t).view.emb y = y := by
  refine funext fun a => Fin.ext ?_
  match a with
  | ⟨0, _⟩ => show win0_2.index t (0 : Fin 2) * 10000 + 1 * (y 0).val = (y 0).val; rw [(idx0 t).2.2.2.2.1]; omega
  | ⟨1, _⟩ => show win0_2.index t (1 : Fin 2) * 128 + 1 * (y 1).val = (y 1).val; rw [(idx0 t).2.2.2.2.2]; omega

/-- WHAT CALL 0 WRITES BACK is `x · W1` of the arrays as it finds them. -/
theorem flushed0_eq (c : Dev nD) (t : Fin cfg0.N) :
    (dat0 V c).flushed 2 t = ((cfg0.win 2).blk t).view.read (Elt Ideal) (proj (V c main_arg0) (V c main_arg2)) := by
  show (cfg0.win 2).cut (grid0.coords t) ((dat0 V c).after 2 t) = _
  rw [after0_2]
  unfold out0_2
  rw [View.canon_unit_zero hz]
  simp only [View.ld_unit_zero (S := S10000x128) hz, View.ld_unit_zero (S := S128x128) hz]
  funext j
  show k0_pay1 (F := Ideal) (iblk0 V c 0 t) (iblk0 V c 1 t) j = proj (V c main_arg0) (V c main_arg2) (((cfg0.win 2).blk t).view.emb j)
  rw [emb0_2 t j, Rows.proj_payload (iblk0 V c 0 t) (iblk0 V c 1 t), read0_0 V c t, read0_1 V c t]

/-- The one block is the whole array. -/
theorem cover0 (i : S10000x128.Idx) :
    ∃ t : Fin cfg0.N, (cfg0.win 2).flush t = true ∧ i ∈ ((cfg0.win 2).blk t).view.set := by
  refine ⟨t0_0, flush0_2 _, ?_⟩
  rw [← emb0_2 t0_0 i]
  exact ((cfg0.win 2).blk t0_0).view.emb_mem_set i

/-- THE OUTPUT ARRAY OF CALL 0: `x · W1` of the arrays as the call finds them. -/
theorem final0 (c : Dev nD) : (dat0 V c).arrAt 2 cfg0.N = proj (V c main_arg0) (V c main_arg2) :=
  (dat0 V c).arrAt_eq_of_cover 2 _ (fun t _ => flushed0_eq V c t) (cover0)

/-! ## Call 1: the first layer -/

/-- The printed index maps of call 1, decided over its 25 points: the adjacency window and the output window are at
    block row `t`; every other window is its whole array. -/
theorem idx1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- A point of call 1 is one of 25. -/
theorem lt1 (t : Fin cfg1.N) : t.val < 25 := by have := t.isLt; have hN : cfg1.N = 25 := N_1; omega

/-- Call 1's window 1 is its whole array at every point. -/
theorem read1_1 (c : Dev nD) (t : Fin cfg1.N) : iblk1 V c 1 t = V c main_v3 := by
  funext y
  show V c main_v3 (((cfg1.win 1).blk t).view.emb y) = V c main_v3 y
  refine congrArg _ (funext fun a => Fin.ext ?_)
  match a with
  | ⟨0, _⟩ => show win1_1.index t (0 : Fin 2) * 10000 + 1 * (y 0).val = (y 0).val; rw [(idx1 t).2.2.1]; omega
  | ⟨1, _⟩ => show win1_1.index t (1 : Fin 2) * 128 + 1 * (y 1).val = (y 1).val; rw [(idx1 t).2.2.2.1]; omega

/-- Call 1's window 2 is its whole array at every point. -/
theorem read1_2 (c : Dev nD) (t : Fin cfg1.N) : iblk1 V c 2 t = V c main_v0 := by
  funext y
  show V c main_v0 (((cfg1.win 2).blk t).view.emb y) = V c main_v0 y
  refine congrArg _ (funext fun a => Fin.ext ?_)
  match a with
  | ⟨0, _⟩ => show win1_2.index t (0 : Fin 2) * 1 + 1 * (y 0).val = (y 0).val; rw [(idx1 t).2.2.2.2.1]; omega
  | ⟨1, _⟩ => show win1_2.index t (1 : Fin 2) * 128 + 1 * (y 1).val = (y 1).val; rw [(idx1 t).2.2.2.2.2.1]; omega

/-- Call 1's window 3 is its whole array at every point. -/
theorem read1_3 (c : Dev nD) (t : Fin cfg1.N) : iblk1 V c 3 t = V c main_arg4 := by
  funext y
  show V c main_arg4 (((cfg1.win 3).blk t).view.emb y) = V c main_arg4 y
  refine congrArg _ (funext fun a => Fin.ext ?_)
  match a with
  | ⟨0, _⟩ => show win1_3.index t (0 : Fin 2) * 128 + 1 * (y 0).val = (y 0).val; rw [(idx1 t).2.2.2.2.2.2.1]; omega
  | ⟨1, _⟩ => show win1_3.index t (1 : Fin 2) * 128 + 1 * (y 1).val = (y 1).val; rw [(idx1 t).2.2.2.2.2.2.2.1]; omega

/-- Call 1's adjacency block at point `t` is rows `400 t … 400 t + 399` of the adjacency. -/
theorem read1_0 (c : Dev nD) (t : Fin cfg1.N) (p : Fin 400) (l : Fin 10000) :
    iblk1 V c 0 t (ix2 p l) = V c main_arg1 (ix2 (⟨400 * t.val + p.val, by have := lt1 t; omega⟩ : Fin 10000) l) := by
  show V c main_arg1 (((cfg1.win 0).blk t).view.emb (ix2 p l)) = _
  refine congrArg _ (funext fun a => Fin.ext ?_)
  match a with
  | ⟨0, _⟩ => show win1_0.index t (0 : Fin 2) * 400 + 1 * p.val = 400 * t.val + p.val; rw [(idx1 t).1]; omega
  | ⟨1, _⟩ => show win1_0.index t (1 : Fin 2) * 10000 + 1 * l.val = l.val; rw [(idx1 t).2.1]; omega

/-- Entry `(p, q)` of call 1's output block at point `t` is entry `(400 t + p, q)` of the output array. -/
theorem emb1_5 (t : Fin cfg1.N) (p : Fin 400) (q : Fin 128) :
    ((cfg1.win 5).blk t).view.emb (ix2 p q) = ix2 (⟨400 * t.val + p.val, by have := lt1 t; omega⟩ : Fin 10000) q := by
  refine funext fun a => Fin.ext ?_
  match a with
  | ⟨0, _⟩ => show win1_5.index t (0 : Fin 2) * 400 + 1 * p.val = 400 * t.val + p.val; rw [(idx1 t).2.2.2.2.2.2.2.2.2.2.1]; omega
  | ⟨1, _⟩ => show win1_5.index t (1 : Fin 2) * 128 + 1 * q.val = q.val; rw [(idx1 t).2.2.2.2.2.2.2.2.2.2.2]; omega

/-- WHAT POINT `t` OF CALL 1 WRITES BACK is block `t` of the layer of the arrays as the call finds them: row `p` of the
    block is computed from row `p` of the adjacency block, which is row `400 t + p` of the adjacency. -/
theorem flushed1_eq (c : Dev nD) (t : Fin cfg1.N) :
    (dat1 V c).flushed 5 t = ((cfg1.win 5).blk t).view.read (Elt Ideal)
      (layer (V c main_arg1) (V c main_v3) (fun k => V c main_v0 (ix2 0 k)) (V c main_arg4)) := by
  show (cfg1.win 5).cut (grid1.coords t) ((dat1 V c).after 5 t) = _
  rw [after1_5]
  unfold out1_5
  rw [View.canon_unit_zero hz]
  simp only [View.ld_unit_zero (S := S400x10000) hz, View.ld_unit_zero (S := S10000x128) hz,
    View.ld_unit_zero (S := S1x128) hz, View.ld_unit_zero (S := S128x128) hz]
  funext j
  obtain ⟨p, q, rfl⟩ : ∃ (p : Fin 400) (q : Fin 128), j = ix2 p q := ⟨j 0, j 1, eq_ix2 j⟩
  show k1_pay1 (F := Ideal) (iblk1 V c 0 t) (iblk1 V c 1 t) (iblk1 V c 2 t) (iblk1 V c 3 t) (ix2 p q)
    = (layer (V c main_arg1) (V c main_v3) (fun k => V c main_v0 (ix2 0 k)) (V c main_arg4)) (((cfg1.win 5).blk t).view.emb (ix2 p q))
  refine (Rows.layer_payload (iblk1 V c 0 t) (iblk1 V c 1 t) (iblk1 V c 2 t) (iblk1 V c 3 t) p q).trans ?_
  rw [emb1_5 t p q, read1_1 V c t, read1_2 V c t, read1_3 V c t,
    show (fun l => iblk1 V c 0 t (ix2 p l)) = fun l => V c main_arg1 (ix2 (⟨400 * t.val + p.val, by have := lt1 t; omega⟩ : Fin 10000) l)
      from funext fun l => read1_0 V c t p l]
  rfl

/-- An index of the output array is in point `t`'s block iff each coordinate is in the block's range on its axis. -/
theorem mem_blk1 (t : Fin cfg1.N) (i : S10000x128.Idx) :
    i ∈ ((cfg1.win 5).blk t).view.set ↔ ∀ a : Fin 2, win1_5.index t a * S400x128.size a ≤ (i a).val
      ∧ (i a).val < win1_5.index t a * S400x128.size a + S400x128.size a := by
  show i ∈ ((View.whole main_v4).slice (win1_5.rect t)).set ↔ _
  rw [View.set_slice_whole, Rect.mem_set_unit]
  exact Iff.rfl

/-- The 25 output blocks of 400 rows cover the 10000 rows: row `r` is in block `r / 400`. -/
theorem cover1 (i : S10000x128.Idx) :
    ∃ t : Fin cfg1.N, (cfg1.win 5).flush t = true ∧ i ∈ ((cfg1.win 5).blk t).view.set := by
  have hi0 : (i 0).val < 10000 := (i 0).isLt
  have hi1 : (i 1).val < 128 := (i 1).isLt
  have hN : cfg1.N = 25 := N_1
  refine ⟨⟨(i 0).val / 400, by rw [hN]; omega⟩, flush1_5 _, ?_⟩
  rw [mem_blk1]
  intro a
  match a with
  | ⟨0, _⟩ =>
    show win1_5.index ⟨(i 0).val / 400, _⟩ (0 : Fin 2) * 400 ≤ (i 0).val
      ∧ (i 0).val < win1_5.index ⟨(i 0).val / 400, _⟩ (0 : Fin 2) * 400 + 400
    rw [(idx1 _).2.2.2.2.2.2.2.2.2.2.1]
    show (i 0).val / 400 * 400 ≤ (i 0).val ∧ (i 0).val < (i 0).val / 400 * 400 + 400
    omega
  | ⟨1, _⟩ =>
    show win1_5.index ⟨(i 0).val / 400, _⟩ (1 : Fin 2) * 128 ≤ (i 1).val
      ∧ (i 1).val < win1_5.index ⟨(i 0).val / 400, _⟩ (1 : Fin 2) * 128 + 128
    rw [(idx1 _).2.2.2.2.2.2.2.2.2.2.2]
    omega

/-- THE OUTPUT ARRAY OF CALL 1 after its 25 points: the layer of the arrays as the call finds them. -/
theorem final1 (c : Dev nD) :
    (dat1 V c).arrAt 5 cfg1.N
      = layer (V c main_arg1) (V c main_v3) (fun k => V c main_v0 (ix2 0 k)) (V c main_arg4) :=
  (dat1 V c).arrAt_eq_of_cover 5 _ (fun t _ => flushed1_eq V c t) (cover1)

/-! ## Call 2: the second layer and the head -/

/-- The printed index maps of call 2, decided over its 25 points: the adjacency window and the output window are at
    block row `t`; every other window is its whole array. -/
theorem idx2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

/-- A point of call 2 is one of 25. -/
theorem lt2 (t : Fin cfg2.N) : t.val < 25 := by have := t.isLt; have hN : cfg2.N = 25 := N_2; omega

/-- Call 2's window 1 is its whole array at every point. -/
theorem read2_1 (c : Dev nD) (t : Fin cfg2.N) : iblk2 V c 1 t = V c main_v4 := by
  funext y
  show V c main_v4 (((cfg2.win 1).blk t).view.emb y) = V c main_v4 y
  refine congrArg _ (funext fun a => Fin.ext ?_)
  match a with
  | ⟨0, _⟩ => show win2_1.index t (0 : Fin 2) * 10000 + 1 * (y 0).val = (y 0).val; rw [(idx2 t).2.2.1]; omega
  | ⟨1, _⟩ => show win2_1.index t (1 : Fin 2) * 128 + 1 * (y 1).val = (y 1).val; rw [(idx2 t).2.2.2.1]; omega

/-- Call 2's window 2 is its whole array at every point. -/
theorem read2_2 (c : Dev nD) (t : Fin cfg2.N) : iblk2 V c 2 t = V c main_v1 := by
  funext y
  show V c main_v1 (((cfg2.win 2).blk t).view.emb y) = V c main_v1 y
  refine congrArg _ (funext fun a => Fin.ext ?_)
  match a with
  | ⟨0, _⟩ => show win2_2.index t (0 : Fin 2) * 1 + 1 * (y 0).val = (y 0).val; rw [(idx2 t).2.2.2.2.1]; omega
  | ⟨1, _⟩ => show win2_2.index t (1 : Fin 2) * 128 + 1 * (y 1).val = (y 1).val; rw [(idx2 t).2.2.2.2.2.1]; omega

/-- Call 2's window 3 is its whole array at every point. -/
theorem read2_3 (c : Dev nD) (t : Fin cfg2.N) : iblk2 V c 3 t = V c main_arg6 := by
  funext y
  show V c main_arg6 (((cfg2.win 3).blk t).view.emb y) = V c main_arg6 y
  refine congrArg _ (funext fun a => Fin.ext ?_)
  match a with
  | ⟨0, _⟩ => show win2_3.index t (0 : Fin 2) * 128 + 1 * (y 0).val = (y 0).val; rw [(idx2 t).2.2.2.2.2.2.1]; omega
  | ⟨1, _⟩ => show win2_3.index t (1 : Fin 2) * 128 + 1 * (y 1).val = (y 1).val; rw [(idx2 t).2.2.2.2.2.2.2.1]; omega

/-- Call 2's window 4 is its whole array at every point. -/
theorem read2_4 (c : Dev nD) (t : Fin cfg2.N) : iblk2 V c 4 t = V c main_v2 := by
  funext y
  show V c main_v2 (((cfg2.win 4).blk t).view.emb y) = V c main_v2 y
  refine congrArg _ (funext fun a => Fin.ext ?_)
  match a with
  | ⟨0, _⟩ => show win2_4.index t (0 : Fin 2) * 1 + 1 * (y 0).val = (y 0).val; rw [(idx2 t).2.2.2.2.2.2.2.2.1]; omega
  | ⟨1, _⟩ => show win2_4.index t (1 : Fin 2) * 128 + 1 * (y 1).val = (y 1).val; rw [(idx2 t).2.2.2.2.2.2.2.2.2.1]; omega

/-- Call 2's adjacency block at point `t` is rows `400 t … 400 t + 399` of the adjacency. -/
theorem read2_0 (c : Dev nD) (t : Fin cfg2.N) (p : Fin 400) (l : Fin 10000) :
    iblk2 V c 0 t (ix2 p l) = V c main_arg1 (ix2 (⟨400 * t.val + p.val, by have := lt2 t; omega⟩ : Fin 10000) l) := by
  show V c main_arg1 (((cfg2.win 0).blk t).view.emb (ix2 p l)) = _
  refine congrArg _ (funext fun a => Fin.ext ?_)
  match a with
  | ⟨0, _⟩ => show win2_0.index t (0 : Fin 2) * 400 + 1 * p.val = 400 * t.val + p.val; rw [(idx2 t).1]; omega
  | ⟨1, _⟩ => show win2_0.index t (1 : Fin 2) * 10000 + 1 * l.val = l.val; rw [(idx2 t).2.1]; omega

/-- Entry `(p, q)` of call 2's output block at point `t` is entry `(400 t + p, q)` of the output array. -/
theorem emb2_5 (t : Fin cfg2.N) (p : Fin 400) (q : Fin 128) :
    ((cfg2.win 5).blk t).view.emb (ix2 p q) = ix2 (⟨400 * t.val + p.val, by have := lt2 t; omega⟩ : Fin 10000) q := by
  refine funext fun a => Fin.ext ?_
  match a with
  | ⟨0, _⟩ => show win2_5.index t (0 : Fin 2) * 400 + 1 * p.val = 400 * t.val + p.val; rw [(idx2 t).2.2.2.2.2.2.2.2.2.2.1]; omega
  | ⟨1, _⟩ => show win2_5.index t (1 : Fin 2) * 128 + 1 * q.val = q.val; rw [(idx2 t).2.2.2.2.2.2.2.2.2.2.2]; omega

/-- WHAT POINT `t` OF CALL 2 WRITES BACK is block `t` of the head of the arrays as the call finds them: row `p` of the
    block is computed from row `p` of the adjacency block, which is row `400 t + p` of the adjacency. -/
theorem flushed2_eq (c : Dev nD) (t : Fin cfg2.N) :
    (dat2 V c).flushed 5 t = ((cfg2.win 5).blk t).view.read (Elt Ideal)
      (head (V c main_arg1) (V c main_v4) (fun k => V c main_v1 (ix2 0 k)) (V c main_arg6) (fun k => V c main_v2 (ix2 0 k))) := by
  show (cfg2.win 5).cut (grid2.coords t) ((dat2 V c).after 5 t) = _
  rw [after2_5]
  unfold out2_5
  rw [View.canon_unit_zero hz]
  simp only [View.ld_unit_zero (S := S400x10000) hz, View.ld_unit_zero (S := S10000x128) hz,
    View.ld_unit_zero (S := S1x128) hz, View.ld_unit_zero (S := S128x128) hz]
  funext j
  obtain ⟨p, q, rfl⟩ : ∃ (p : Fin 400) (q : Fin 128), j = ix2 p q := ⟨j 0, j 1, eq_ix2 j⟩
  show k2_pay1 (F := Ideal) (iblk2 V c 0 t) (iblk2 V c 1 t) (iblk2 V c 2 t) (iblk2 V c 3 t) (iblk2 V c 4 t) (ix2 p q)
    = (head (V c main_arg1) (V c main_v4) (fun k => V c main_v1 (ix2 0 k)) (V c main_arg6) (fun k => V c main_v2 (ix2 0 k))) (((cfg2.win 5).blk t).view.emb (ix2 p q))
  refine (Rows.head_payload (iblk2 V c 0 t) (iblk2 V c 1 t) (iblk2 V c 2 t) (iblk2 V c 3 t) (iblk2 V c 4 t) p q).trans ?_
  rw [emb2_5 t p q, read2_1 V c t, read2_2 V c t, read2_3 V c t, read2_4 V c t,
    show (fun l => iblk2 V c 0 t (ix2 p l)) = fun l => V c main_arg1 (ix2 (⟨400 * t.val + p.val, by have := lt2 t; omega⟩ : Fin 10000) l)
      from funext fun l => read2_0 V c t p l]
  rfl

/-- An index of the output array is in point `t`'s block iff each coordinate is in the block's range on its axis. -/
theorem mem_blk2 (t : Fin cfg2.N) (i : S10000x128.Idx) :
    i ∈ ((cfg2.win 5).blk t).view.set ↔ ∀ a : Fin 2, win2_5.index t a * S400x128.size a ≤ (i a).val
      ∧ (i a).val < win2_5.index t a * S400x128.size a + S400x128.size a := by
  show i ∈ ((View.whole main_v5).slice (win2_5.rect t)).set ↔ _
  rw [View.set_slice_whole, Rect.mem_set_unit]
  exact Iff.rfl

/-- The 25 output blocks of 400 rows cover the 10000 rows: row `r` is in block `r / 400`. -/
theorem cover2 (i : S10000x128.Idx) :
    ∃ t : Fin cfg2.N, (cfg2.win 5).flush t = true ∧ i ∈ ((cfg2.win 5).blk t).view.set := by
  have hi0 : (i 0).val < 10000 := (i 0).isLt
  have hi1 : (i 1).val < 128 := (i 1).isLt
  have hN : cfg2.N = 25 := N_2
  refine ⟨⟨(i 0).val / 400, by rw [hN]; omega⟩, flush2_5 _, ?_⟩
  rw [mem_blk2]
  intro a
  match a with
  | ⟨0, _⟩ =>
    show win2_5.index ⟨(i 0).val / 400, _⟩ (0 : Fin 2) * 400 ≤ (i 0).val
      ∧ (i 0).val < win2_5.index ⟨(i 0).val / 400, _⟩ (0 : Fin 2) * 400 + 400
    rw [(idx2 _).2.2.2.2.2.2.2.2.2.2.1]
    show (i 0).val / 400 * 400 ≤ (i 0).val ∧ (i 0).val < (i 0).val / 400 * 400 + 400
    omega
  | ⟨1, _⟩ =>
    show win2_5.index ⟨(i 0).val / 400, _⟩ (1 : Fin 2) * 128 ≤ (i 1).val
      ∧ (i 1).val < win2_5.index ⟨(i 0).val / 400, _⟩ (1 : Fin 2) * 128 + 128
    rw [(idx2 _).2.2.2.2.2.2.2.2.2.2.2]
    omega

/-- THE OUTPUT ARRAY OF CALL 2 after its 25 points: the head of the arrays as the call finds them. -/
theorem final2 (c : Dev nD) :
    (dat2 V c).arrAt 5 cfg2.N
      = head (V c main_arg1) (V c main_v4) (fun k => V c main_v1 (ix2 0 k)) (V c main_arg6) (fun k => V c main_v2 (ix2 0 k)) :=
  (dat2 V c).arrAt_eq_of_cover 5 _ (fun t _ => flushed2_eq V c t) (cover2)

end Cert.KernelIdeal.Blocks

end
-- ==== Proof.KernelFold.lean ====
/-
  THE FOLD, READ. The buffer contents at the four boundaries of the program are a fold from the launch memory: the
  three reshapes of the bias vectors, then each call's arrays at what its write-backs leave. Followed buffer by buffer:

    * no stretch writes an argument array, so every call finds the arguments as launched;
    * a reshaped bias [128] → [1, 128] holds the bias at `(0, k)`, and no call writes it;
    * call 0 leaves `S = x · W1`; call 1 finds it and leaves `T = relu (adj · S + b1) · W3`;
      call 2 finds `T` and leaves `tanh (relu (adj · T + b3) · Wf + bf)` in the result buffer.

  So the result buffer after the last call holds the specification `Cert.Gcn.gcn` of the eight launch arrays.
-/
import proofs.«152872_g71992241816152_cont_sun_m_564_22_alg».proof.Proof.Gen.KernelIdeal.Frame
import proofs.«152872_g71992241816152_cont_sun_m_564_22_alg».proof.Proof.KernelBlocks
import Idealize.ShloMosaic.Lib.StableHlo.Run
import Idealize.ShloMosaic.Lib.Pipeline.Value

set_option maxRecDepth 16384

noncomputable section

open scoped BigOperators

namespace Cert.KernelIdeal.Fold

open Cert.KernelIdeal Cert.KernelIdeal.Gen
open Idealize.ShloMosaic Idealize.ShloMosaic.TcCoe Idealize.ShloMosaic.ValueIdx Idealize.SL.Sem Idealize.ShloMosaic.StableHlo Cert.Gcn
open Idealize.ShloMosaic.Pipeline (Dat Cfg Window)

variable (m : (ℓ : Loc nD τ sig) → Buf (Elt Ideal) ℓ) (ρ : Dev nD → PrngReg)

/-! ## After the reshapes: the arguments as launched, each bias as a row -/

theorem W1_arg0 (c : Dev nD) : W1 m ρ c (Proc.devRef .tc main_arg0) = m ((c : Thread nD τ).loc main_arg0) := by
  dsimp only [W1, hostOps0]
  after_results <;> rfl

theorem W1_arg1 (c : Dev nD) : W1 m ρ c (Proc.devRef .tc main_arg1) = m ((c : Thread nD τ).loc main_arg1) := by
  dsimp only [W1, hostOps0]
  after_results <;> rfl

theorem W1_arg2 (c : Dev nD) : W1 m ρ c (Proc.devRef .tc main_arg2) = m ((c : Thread nD τ).loc main_arg2) := by
  dsimp only [W1, hostOps0]
  after_results <;> rfl

theorem W1_arg4 (c : Dev nD) : W1 m ρ c (Proc.devRef .tc main_arg4) = m ((c : Thread nD τ).loc main_arg4) := by
  dsimp only [W1, hostOps0]
  after_results <;> rfl

theorem W1_arg6 (c : Dev nD) : W1 m ρ c (Proc.devRef .tc main_arg6) = m ((c : Thread nD τ).loc main_arg6) := by
  dsimp only [W1, hostOps0]
  after_results <;> rfl

theorem W1_v0 (c : Dev nD) (k : Fin 128) :
    W1 m ρ c (Proc.devRef .tc main_v0) (ix2 0 k) = m ((c : Thread nD τ).loc main_arg3) (ix1 k) := by
  have e : W1 m ρ c (Proc.devRef .tc main_v0)
      = fun i => shapeCast S1x128 (m ((c : Thread nD τ).loc main_arg3)) Facts₀.shapeCasts_S128_S1x128 i := by
    dsimp only [W1, hostOps0]
    after_results <;> rfl
  rw [e]
  exact (shapeCast_addUnit_apply ![128] _ _ (ix2 0 k)).trans
    (congrArg _ (funext fun a => by match a with | ⟨0, _⟩ => rfl))

theorem W1_v1 (c : Dev nD) (k : Fin 128) :
    W1 m ρ c (Proc.devRef .tc main_v1) (ix2 0 k) = m ((c : Thread nD τ).loc main_arg5) (ix1 k) := by
  have e : W1 m ρ c (Proc.devRef .tc main_v1)
      = fun i => shapeCast S1x128 (m ((c : Thread nD τ).loc main_arg5)) Facts₀.shapeCasts_S128_S1x128 i := by
    dsimp only [W1, hostOps0]
    after_results <;> rfl
  rw [e]
  exact (shapeCast_addUnit_apply ![128] _ _ (ix2 0 k)).trans
    (congrArg _ (funext fun a => by match a with | ⟨0, _⟩ => rfl))

theorem W1_v2 (c : Dev nD) (k : Fin 128) :
    W1 m ρ c (Proc.devRef .tc main_v2) (ix2 0 k) = m ((c : Thread nD τ).loc main_arg7) (ix1 k) := by
  have e : W1 m ρ c (Proc.devRef .tc main_v2)
      = fun i => shapeCast S1x128 (m ((c : Thread nD τ).loc main_arg7)) Facts₀.shapeCasts_S128_S1x128 i := by
    dsimp only [W1, hostOps0]
    after_results <;> rfl
  rw [e]
  exact (shapeCast_addUnit_apply ![128] _ _ (ix2 0 k)).trans
    (congrArg _ (funext fun a => by match a with | ⟨0, _⟩ => rfl))

/-! ## What call 0 finds, and leaves -/

theorem V1_arg0 (c : Dev nD) : V1 m ρ c main_arg0 = m ((c : Thread nD τ).loc main_arg0) := W1_arg0 m ρ c
theorem V1_arg2 (c : Dev nD) : V1 m ρ c main_arg2 = m ((c : Thread nD τ).loc main_arg2) := W1_arg2 m ρ c

/-- After call 0 its output buffer holds `x · W1`. -/
theorem V2_v3 (c : Dev nD) :
    V2 m ρ c main_v3 = proj (m ((c : Thread nD τ).loc main_arg0)) (m ((c : Thread nD τ).loc main_arg2)) := by
  refine (W2_arr m ρ c 2).trans ((Blocks.final0 (V1 m ρ) c).trans ?_)
  rw [V1_arg0, V1_arg2]

/-! ## What call 1 finds, and leaves -/

theorem V2_arg1 (c : Dev nD) : V2 m ρ c main_arg1 = m ((c : Thread nD τ).loc main_arg1) :=
  (W2_of_ne m ρ c main_arg1 (by decide)).trans (W1_arg1 m ρ c)
theorem V2_arg4 (c : Dev nD) : V2 m ρ c main_arg4 = m ((c : Thread nD τ).loc main_arg4) :=
  (W2_of_ne m ρ c main_arg4 (by decide)).trans (W1_arg4 m ρ c)
theorem V2_v0 (c : Dev nD) (k : Fin 128) : V2 m ρ c main_v0 (ix2 0 k) = m ((c : Thread nD τ).loc main_arg3) (ix1 k) :=
  (congrFun (W2_of_ne m ρ c main_v0 (by decide)) (ix2 0 k)).trans (W1_v0 m ρ c k)

/-- After call 1 its output buffer holds the first layer `T`. -/
theorem V3_v4 (c : Dev nD) :
    V3 m ρ c main_v4 = layer (m ((c : Thread nD τ).loc main_arg1))
      (proj (m ((c : Thread nD τ).loc main_arg0)) (m ((c : Thread nD τ).loc main_arg2)))
      (fun k => m ((c : Thread nD τ).loc main_arg3) (ix1 k)) (m ((c : Thread nD τ).loc main_arg4)) := by
  refine (W3_arr m ρ c 5).trans ((Blocks.final1 (V2 m ρ) c).trans ?_)
  rw [V2_arg1, V2_v3, V2_arg4, show (fun k => V2 m ρ c main_v0 (ix2 0 k)) = fun k => m ((c : Thread nD τ).loc main_arg3) (ix1 k)
    from funext fun k => V2_v0 m ρ c k]

/-! ## What call 2 finds, and leaves -/

theorem V3_arg1 (c : Dev nD) : V3 m ρ c main_arg1 = m ((c : Thread nD τ).loc main_arg1) :=
  ((W3_arr m ρ c 0).trans (((dat1 (V2 m ρ) c).arrAt_in 0 rfl _).trans (A_eq1 (V2 m ρ) c 0))).trans (V2_arg1 m ρ c)
theorem V3_arg6 (c : Dev nD) : V3 m ρ c main_arg6 = m ((c : Thread nD τ).loc main_arg6) :=
  (W3_of_ne m ρ c main_arg6 (by decide)).trans ((W2_of_ne m ρ c main_arg6 (by decide)).trans (W1_arg6 m ρ c))
theorem V3_v1 (c : Dev nD) (k : Fin 128) : V3 m ρ c main_v1 (ix2 0 k) = m ((c : Thread nD τ).loc main_arg5) (ix1 k) :=
  (congrFun ((W3_arr m ρ c 4).trans (((dat1 (V2 m ρ) c).arrAt_in 4 rfl _).trans (A_eq1 (V2 m ρ) c 4))) (ix2 0 k)).trans
    ((congrFun (W2_of_ne m ρ c main_v1 (by decide)) (ix2 0 k)).trans (W1_v1 m ρ c k))
theorem V3_v2 (c : Dev nD) (k : Fin 128) : V3 m ρ c main_v2 (ix2 0 k) = m ((c : Thread nD τ).loc main_arg7) (ix1 k) :=
  (congrFun (W3_of_ne m ρ c main_v2 (by decide)) (ix2 0 k)).trans
    ((congrFun (W2_of_ne m ρ c main_v2 (by decide)) (ix2 0 k)).trans (W1_v2 m ρ c k))

/-- THE RESULT BUFFER after the last call holds the network of the eight launch arrays. -/
theorem result (c : Dev nD) :
    W4 m ρ c (Proc.devRef .tc main_v5)
      = gcn (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) := by
  refine (W4_arr m ρ c 5).trans ((Blocks.final2 (V3 m ρ) c).trans ?_)
  rw [V3_arg1, V3_v4, V3_arg6,
    show (fun k => V3 m ρ c main_v1 (ix2 0 k)) = fun k => m ((c : Thread nD τ).loc main_arg5) (ix1 k)
      from funext fun k => V3_v1 m ρ c k,
    show (fun k => V3 m ρ c main_v2 (ix2 0 k)) = fun k => m ((c : Thread nD τ).loc main_arg7) (ix1 k)
      from funext fun k => V3_v2 m ρ c k]
  rfl

end Cert.KernelIdeal.Fold

end
-- ==== Proof.lean ====
/-
  A two-layer graph convolution with a dense 10000 × 10000 adjacency,

      y = tanh (relu (adj · (relu (adj · (x · W1) + b1) · W3) + b3) · Wf + bf),

  computed by three pallas_calls against the same expression in jnp. On the extended reals the two programs apply
  the same operations in the same order; what differs is only how the work is cut. The kernel computes `x · W1` in one
  gridless call, then runs each layer over 25 blocks of 400 adjacency rows, fusing the bias, the rectifier and the
  128 × 128 product (and in the last call the second bias and tanh) into each block; the reference does every product
  whole. Since row `p` of `relu (adj · S + b) · W` depends on the adjacency through its row `p` alone, a block of rows
  computed from a block of adjacency rows is that block of the whole result: no law of arithmetic is needed beyond
  each matrix product being its textbook sum, and finiteness of the inputs is never used.

  The modules: Spec (the network entry by entry, row by row), LibPlainDot (a plain matrix product is its sum),
  RefGcn (the reference's term is the specification), KernelRows (each call's stored value at an entry),
  KernelBlocks (each call's output array from its blocks), KernelFold (the buffers followed through the three calls),
  KernelRun (the kernel's run with its result read). The three frames are the generated ones; the idealization
  rewrote nothing, so `preserves` is trivial.
-/
import proofs.«152872_g71992241816152_cont_sun_m_564_22_alg».proof.Defs
import proofs.«152872_g71992241816152_cont_sun_m_564_22_alg».proof.Proof.Gen.Kernel
import proofs.«152872_g71992241816152_cont_sun_m_564_22_alg».proof.Proof.Gen.Kernel.Skeleton
import proofs.«152872_g71992241816152_cont_sun_m_564_22_alg».proof.Proof.Gen.Kernel.Launch
import proofs.«152872_g71992241816152_cont_sun_m_564_22_alg».proof.Proof.Gen.Kernel.Points
import proofs.«152872_g71992241816152_cont_sun_m_564_22_alg».proof.Proof.Gen.Kernel.Frame
import proofs.«152872_g71992241816152_cont_sun_m_564_22_alg».proof.Proof.Gen.KernelIdeal
import proofs.«152872_g71992241816152_cont_sun_m_564_22_alg».proof.Proof.Gen.KernelIdeal.Skeleton
import proofs.«152872_g71992241816152_cont_sun_m_564_22_alg».proof.Proof.Gen.KernelIdeal.Launch
import proofs.«152872_g71992241816152_cont_sun_m_564_22_alg».proof.Proof.Gen.KernelIdeal.Points
import proofs.«152872_g71992241816152_cont_sun_m_564_22_alg».proof.Proof.Gen.KernelIdeal.Frame
import proofs.«152872_g71992241816152_cont_sun_m_564_22_alg».proof.Proof.Gen.ReferenceIdeal
import proofs.«152872_g71992241816152_cont_sun_m_564_22_alg».proof.Proof.Gen.ReferenceIdeal.Run
import proofs.«152872_g71992241816152_cont_sun_m_564_22_alg».proof.Proof.Gen.ReferenceIdeal.Read
import proofs.«152872_g71992241816152_cont_sun_m_564_22_alg».proof.Proof.Gen.Pre_finite_inputs
import proofs.«152872_g71992241816152_cont_sun_m_564_22_alg».proof.Proof.RefGcn
import proofs.«152872_g71992241816152_cont_sun_m_564_22_alg».proof.Proof.KernelRun
import proofs.«152872_g71992241816152_cont_sun_m_564_22_alg».proof.Proof.KernelFold
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both runs end with the result at the network of the launch arrays: the kernel's by following its buffers through the
    three calls, the reference's by reading its term; the two memories agree on the arguments. -/
theorem algebraic : Cert.algebraic_KernelIdeal_ReferenceIdeal := by
  intro m ρ m' ρ' _ hagree
  refine ⟨fun c => Cert.Gcn.gcn (m ((c : Thread Cert.KernelIdeal.nD Cert.KernelIdeal.τ).loc Cert.KernelIdeal.main_arg0))
      (m ((c : Thread Cert.KernelIdeal.nD Cert.KernelIdeal.τ).loc Cert.KernelIdeal.main_arg1))
      (m ((c : Thread Cert.KernelIdeal.nD Cert.KernelIdeal.τ).loc Cert.KernelIdeal.main_arg2))
      (m ((c : Thread Cert.KernelIdeal.nD Cert.KernelIdeal.τ).loc Cert.KernelIdeal.main_arg3))
      (m ((c : Thread Cert.KernelIdeal.nD Cert.KernelIdeal.τ).loc Cert.KernelIdeal.main_arg4))
      (m ((c : Thread Cert.KernelIdeal.nD Cert.KernelIdeal.τ).loc Cert.KernelIdeal.main_arg5))
      (m ((c : Thread Cert.KernelIdeal.nD Cert.KernelIdeal.τ).loc Cert.KernelIdeal.main_arg6))
      (m ((c : Thread Cert.KernelIdeal.nD Cert.KernelIdeal.τ).loc Cert.KernelIdeal.main_arg7)), ?_, ?_⟩
  · exact (θ_run Cert.KernelIdeal.defs _ _).mono
      (fun r h c => ⟨(h c).1.trans (Cert.KernelIdeal.Fold.result m ρ c), (h c).2⟩)
      (Cert.KernelIdeal.Result.run m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v16_eq, Cert.ReferenceIdeal.IsGcn.result_eq,
      (hagree c).1, (hagree c).2.1, (hagree c).2.2.1, (hagree c).2.2.2.1, (hagree c).2.2.2.2.1,
      (hagree c).2.2.2.2.2.1, (hagree c).2.2.2.2.2.2.1, (hagree c).2.2.2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
